-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S4096x4096 : Shape := ⟨2, ![4096, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S4096x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S16384x4096 .f32) (main_arg1 : FVec F S4096 .f32) (main_arg2 : FVec F S4096 .f32) (main_arg3 : FVec F S4096 .f32) (main_arg4 : FVec F S4096x4096 .f32) (main_arg5 : FVec F S4096x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_v13 main_v16
-- ==== Kernel.lean ====
abbrev S16384x4096 : Shape := ⟨2, ![16384, 4096]⟩
abbrev S4096 : Shape := ⟨1, ![4096]⟩
abbrev S4096x4096 : Shape := ⟨2, ![4096, 4096]⟩
abbrev S64x4096 : Shape := ⟨2, ![64, 4096]⟩
abbrev S64 : Shape := ⟨1, ![64]⟩
abbrev S64x1 : Shape := ⟨2, ![64, 1]⟩
abbrev S1x4096 : Shape := ⟨2, ![1, 4096]⟩

abbrev nBuf : Space → Nat
  | .hbm => 11
  | .vmem => 17
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x4096, .bf16⟩
  | .hbm, ⟨8, _⟩ => ⟨S16384x4096, .bf16⟩
  | .hbm, ⟨9, _⟩ => ⟨S16384x4096, .f32⟩
  | .hbm, ⟨10, _⟩ => ⟨S16384x4096, .f32⟩
  | .local _ .vmem, ⟨0, _⟩ => ⟨S64x4096, .f32⟩
  | .local _ .vmem, ⟨1, _⟩ => ⟨S64x4096, .f32⟩
  | .local _ .vmem, ⟨2, _⟩ => ⟨S4096, .f32⟩
  | .local _ .vmem, ⟨3, _⟩ => ⟨S4096, .f32⟩
  | .local _ .vmem, ⟨4, _⟩ => ⟨S4096x4096, .bf16⟩
  | .local _ .vmem, ⟨5, _⟩ => ⟨S64x4096, .bf16⟩
  | .local _ .vmem, ⟨6, _⟩ => ⟨S64x4096, .bf16⟩
  | .local _ .vmem, ⟨7, _⟩ => ⟨S64x4096, .f32⟩
  | .local _ .vmem, ⟨8, _⟩ => ⟨S64x4096, .f32⟩
  | .local _ .vmem, ⟨9, _⟩ => ⟨S64x4096, .bf16⟩
  | .local _ .vmem, ⟨10, _⟩ => ⟨S64x4096, .bf16⟩
  | .local _ .vmem, ⟨11, _⟩ => ⟨S64x4096, .f32⟩
  | .local _ .vmem, ⟨12, _⟩ => ⟨S64x4096, .f32⟩
  | .local _ .vmem, ⟨13, _⟩ => ⟨S4096, .f32⟩
  | .local _ .vmem, ⟨14, _⟩ => ⟨S4096x4096, .bf16⟩
  | .local _ .vmem, ⟨15, _⟩ => ⟨S64x4096, .f32⟩
  | .local _ .vmem, ⟨16, _⟩ => ⟨S64x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S4096x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S64x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  reduces_S64x4096_S64 : S64x4096.Reduces [1] S64
  shapeCasts_S64_S64x1 : S64.ShapeCasts S64x1
  broadcasts_S64x1_S64x4096 : S64x1.Broadcasts S64x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S64x4096 : S1x4096.Broadcasts S64x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  packedbf16_S64x4096_S64x4096_0_0 : (Rect.unit (s := S64x4096) ![0, 0] S64x4096.size inb_S64x4096_S64x4096_0_0).PackedRows (EltTy.packing .bf16)
  shapeCasts_S64x4096_S64x4096 : S64x4096.ShapeCasts S64x4096
  dot_S64x4096_S4096x4096_S64x4096_1_0_0_1_n_n_wf : DotDims.WF S64x4096 S4096x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S16384x4096.size a
  hwx0_0 : ∀ i : grid0.Coords, EltTy.bits .f32 = 32 ∨ (Rect.block (s := S16384x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096.size a ≤ S4096.size a
  hwx0_1 : ∀ i : grid0.Coords, EltTy.bits .f32 = 32 ∨ (Rect.block (s := S4096) S4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x4096.size a ≤ S4096x4096.size a
  hwx0_3 : ∀ i : grid0.Coords, EltTy.bits .bf16 = 32 ∨ (Rect.block (s := S4096x4096) S4096x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x4096.size a ≤ S16384x4096.size a
  hwx0_4 : ∀ i : grid0.Coords, EltTy.bits .bf16 = 32 ∨ (Rect.block (s := S16384x4096) S64x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x4096.size a ≤ S16384x4096.size a
  hwx0_5 : ∀ i : grid0.Coords, EltTy.bits .f32 = 32 ∨ (Rect.block (s := S16384x4096) S64x4096.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x4096.size a ≤ S16384x4096.size a
  hwx1_0 : ∀ i : grid1.Coords, EltTy.bits .bf16 = 32 ∨ (Rect.block (s := S16384x4096) S64x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x4096.size a ≤ S16384x4096.size a
  hwx1_1 : ∀ i : grid1.Coords, EltTy.bits .f32 = 32 ∨ (Rect.block (s := S16384x4096) S64x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S4096.size a
  hwx1_2 : ∀ i : grid1.Coords, EltTy.bits .f32 = 32 ∨ (Rect.block (s := S4096) S4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x4096.size a ≤ S4096x4096.size a
  hwx1_3 : ∀ i : grid1.Coords, EltTy.bits .bf16 = 32 ∨ (Rect.block (s := S4096x4096) S4096x4096.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S64x4096.size a ≤ S16384x4096.size a
  hwx1_4 : ∀ i : grid1.Coords, EltTy.bits .f32 = 32 ∨ (Rect.block (s := S16384x4096) S64x4096.size (cc1_transform_4 i) (hinb1_4 i)).WholeWords (EltTy.packing .f32)

variable [Facts₀]

def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf

abbrev win0_0 : Pipeline.Window sig grid0 :=
  Pipeline.Window.ofSpec (Memref.whole main_arg0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S64x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S64x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2_0) S64x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S64x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S4096x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S64x4096.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16384x4096 : Shape := ⟨2, ![16384, 4096]⟩
abbrev S4096 : Shape := ⟨1, ![4096]⟩
abbrev S4096x4096 : Shape := ⟨2, ![4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 61
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x4096, .f32⟩
  | .hbm, ⟨21, _⟩ => ⟨S16384x4096, .f32⟩
  | .hbm, ⟨22, _⟩ => ⟨S1x4096, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384, .f32⟩
  | .hbm, ⟨30, _⟩ => ⟨S16384x1, .f32⟩
  | .hbm, ⟨31, _⟩ => ⟨S_, .f32⟩
  | .hbm, ⟨32, _⟩ => ⟨S16384x1, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S16384x1, .f32⟩
  | .hbm, ⟨38, _⟩ => ⟨S16384x4096, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384x1, .f32⟩
  | .hbm, ⟨54, _⟩ => ⟨S16384x1, .f32⟩
  | .hbm, ⟨55, _⟩ => ⟨S16384x1, .f32⟩
  | .hbm, ⟨56, _⟩ => ⟨S16384x4096, .f32⟩
  | .hbm, ⟨57, _⟩ => ⟨S16384x4096, .f32⟩
  | .hbm, ⟨58, _⟩ => ⟨S1x4096, .f32⟩
  | .hbm, ⟨59, _⟩ => ⟨S16384x4096, .f32⟩
  | .hbm, ⟨60, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  dot_S16384x4096_S4096x4096_S16384x4096_1_0_0_1_n_n_wf : DotDims.WF S16384x4096 S4096x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibRmsNorm.lean ====
/-
  Root-mean-square normalisation of the rows of a matrix, read one row at a time on the extended reals, over any sizes.

  A row r of N entries is scaled by s(r) = rsqrt((Σ_k r_k · r_k) / c + e), where c and e are the numbers two given 32-bit
  words encode (the row length and a small offset, as the program spells them), and then multiplied entry by entry
  by a gain row g:   rowNorm r g q = r_q · s(r) · g_q.

  The same function is computed two ways. On the vector unit: square, sum along the lanes from zero, lay the sums
  out as a column, divide, add, take the reciprocal square root, spread the column along the lanes, multiply; the
  gain row laid out as a row and spread down the sublanes. On the host: square, reduce-add over the last axis from a
  scalar zero, broadcast to a column, divide by a broadcast scalar, add a broadcast scalar, reciprocal square root,
  broadcast along the last axis, multiply; the gain broadcast to a row and then down the rows. Both, read at
  row p, are rowNorm of row p of the operand. Nothing here needs the entries to be finite: both sides apply the same
  operations to the same sums.

  Also here: the vocabulary of rows (row p of a matrix, a vector as a function of its coordinate, a matrix as a function
  of two coordinates), and a row times a matrix.
-/
import Idealize.ShloMosaic.PureOps.Ideal.Laws
import Idealize.ShloMosaic.Lib.Pipeline.Value
import Idealize.ShloMosaic.Lib.ValueIdx
import proofs.«100445_j28664611733561_1_alg».proof.Proof.LibColRowBroadcast

noncomputable section

open scoped BigOperators

namespace Cert.RmsNorm

open Idealize.ShloMosaic Idealize.ShloMosaic.ValueIdx

/-! ## Rows -/

/-- Row `p` of a matrix, as a function of the column. -/
def row {M N : ℕ} (a : (⟨2, ![M, N]⟩ : Shape).Idx → EReal) (p : Fin M) : Fin N → EReal := fun k => a (ix2 p k)

/-- A vector as a function of its coordinate. -/
def vec {N : ℕ} (g : (⟨1, ![N]⟩ : Shape).Idx → EReal) : Fin N → EReal := fun k => g (ix1 k)

/-- A matrix as a function of its two coordinates. -/
def mat {K N : ℕ} (w : (⟨2, ![K, N]⟩ : Shape).Idx → EReal) : Fin K → Fin N → EReal := fun k q => w (ix2 k q)

/-- A row times a matrix: entry q is Σ_k r_k · w_{k q}. -/
def rowMat {K N : ℕ} (r : Fin K → EReal) (w : Fin K → Fin N → EReal) : Fin N → EReal := fun q => ∑ k, r k * w k q

/-- The scale of a row: the reciprocal square root of (Σ_k r_k² divided by the number `cN` encodes, plus the number
    `ce` encodes). -/
def scale {N : ℕ} (cN ce : BitVec 32) (r : Fin N → EReal) : EReal :=
  Ideal.rsqrt (Ideal.div (∑ k, r k * r k) (Ideal.ofBits .f32 cN) + Ideal.ofBits .f32 ce)

/-- A row normalised by its scale and multiplied entry by entry by a gain row. -/
def rowNorm {N : ℕ} (cN ce : BitVec 32) (r g : Fin N → EReal) : Fin N → EReal := fun q => r q * scale cN ce r * g q

/-- Rows of equal matrices' sums: row p of a pointwise sum is the sum of the rows. -/
theorem row_addf {M N : ℕ} (a b : FVec Ideal ⟨2, ![M, N]⟩ .f32) (p : Fin M) :
    row (addf a b) p = fun q => row a p q + row b p q := rfl

/-! ## On the vector unit -/

/-- The reduced index `p` with lane `k` put back is (p, k). -/
theorem lift_lane {M N : ℕ} (h : (⟨2, ![M, N]⟩ : Shape).Reduces [1] (⟨1, ![M]⟩ : Shape)) (p : Fin M)
    (k : Fin ((⟨2, ![M, N]⟩ : Shape).size 1)) : h.lift (ix1 p) k = ix2 p (⟨k.val, k.isLt⟩ : Fin N) := by
  funext c; apply Fin.ext
  fin_cases c <;> rfl

/-- A sum along the lanes from zero, at row `p`, is the sum of the row. -/
theorem laneSum_apply {M N : ℕ} (src : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ) (p : Fin M) :
    multiReduction .add [1] ⟨1, ![M]⟩ src 0x00000000#32 hr hφ hacc (ix1 p) = ∑ k : Fin N, src (ix2 p k) := by
  refine (Ideal.multiReduction_add_single src 0x00000000#32 hr hφ hacc (ix1 p)).trans ?_
  exact Finset.sum_congr rfl fun k _ => congrArg src (lift_lane hr p k)

/-- The column of scales as the vector unit computes it. -/
def colScale {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) : FVec Ideal ⟨2, ![M, 1]⟩ .f32 :=
  rsqrt (addf (divf (shapeCast ⟨2, ![M, 1]⟩ (multiReduction .add [1] ⟨1, ![M]⟩ (mulf a a) 0x00000000#32 hr hφ hacc) hc)
    (broadcast ⟨2, ![M, 1]⟩ (Scalar.ofBits .f32 cN))) (broadcast ⟨2, ![M, 1]⟩ (Scalar.ofBits .f32 ce)))

/-- The column of scales at row `p` is the scale of row `p`. -/
theorem colScale_apply {M N : ℕ} (cN ce : BitVec 32) (a : FVec Ideal ⟨2, ![M, N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (p : Fin M) (z : Fin 1) :
    colScale cN ce a hr hφ hacc hc (ix2 p z) = scale cN ce (row a p) := by
  have h1 : shapeCast ⟨2, ![M, 1]⟩ (multiReduction .add [1] ⟨1, ![M]⟩ (mulf a a) 0x00000000#32 hr hφ hacc) hc (ix2 p z)
      = ∑ k : Fin N, row a p k * row a p k :=
    (Cert.ColRowBroadcast.colCast_apply _ hc p z).trans (laneSum_apply (mulf a a) hr hφ hacc p)
  exact congrArg (fun s => Ideal.rsqrt (Ideal.div s (Ideal.ofBits .f32 cN) + Ideal.ofBits .f32 ce)) h1

/-- Root-mean-square normalisation of the rows of `a` with gain `g`, as the vector unit computes it. -/
def vectorNorm {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) :
    FVec Ideal ⟨2, ![M, N]⟩ .f32 :=
  mulf (mulf a (broadcastTo ⟨2, ![M, N]⟩ (colScale cN ce a hr hφ hacc hc) hb))
    (broadcastTo ⟨2, ![M, N]⟩ (shapeCast ⟨2, ![1, N]⟩ g hg) hgb)

/-- Row `p` of the vector unit's normalisation is rowNorm of row `p`. -/
theorem vectorNorm_row {M N : ℕ} (cN ce : BitVec 32) (a : FVec Ideal ⟨2, ![M, N]⟩ .f32) (g : FVec Ideal ⟨1, ![N]⟩ .f32)
    (hr : (⟨2, ![M, N]⟩ : Shape).Reduces [1] (⟨1, ![M]⟩ : Shape)) (hφ : FKind.Formats .f32)
    (hacc : (0x00000000#32 : BitVec (FTy.bits .f32)) = FKind.add.neutral .f32 hφ)
    (hc : (⟨1, ![M]⟩ : Shape).ShapeCasts ⟨2, ![M, 1]⟩) (hb : (⟨2, ![M, 1]⟩ : Shape).Broadcasts ⟨2, ![M, N]⟩)
    (hg : (⟨1, ![N]⟩ : Shape).ShapeCasts ⟨2, ![1, N]⟩) (hgb : (⟨2, ![1, N]⟩ : Shape).Broadcasts ⟨2, ![M, N]⟩) (p : Fin M) :
    row (vectorNorm cN ce a g hr hφ hacc hc hb hg hgb) p = rowNorm cN ce (row a p) (vec g) := by
  funext q
  have hs : broadcastTo ⟨2, ![M, N]⟩ (colScale cN ce a hr hφ hacc hc) hb (ix2 p q) = scale cN ce (row a p) :=
    (Cert.ColRowBroadcast.colBroadcast_apply _ hb p q).trans (colScale_apply cN ce a hr hφ hacc hc p 0)
  have hq : broadcastTo ⟨2, ![M, N]⟩ (shapeCast ⟨2, ![1, N]⟩ g hg) hgb (ix2 p q) = vec g q :=
    (Cert.ColRowBroadcast.rowBroadcast_apply _ hgb p q).trans (Cert.ColRowBroadcast.rowCast_apply g hg 0 q)
  show a (ix2 p q) * broadcastTo ⟨2, ![M, N]⟩ (colScale cN ce a hr hφ hacc hc) hb (ix2 p q)
      * broadcastTo ⟨2, ![M, N]⟩ (shapeCast ⟨2, ![1, N]⟩ g hg) hgb (ix2 p q) = _
  rw [hs, hq]
  rfl

/-! ## On the host -/

/-- The host's sum over the last axis from a scalar zero, at row `p`, is the sum of the row. -/
theorem hostSum_apply {M N : ℕ} (src : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel) (p : Fin M) :
    Host.reduceAdd src (constant (F := Ideal) ⟨0, ![]⟩ .f32 0x00000000#32) hrt h0 (ix1 p) = ∑ k : Fin N, src (ix2 p k) := by
  show Ideal.hostReduceAdd hrt src (Ideal.ofBits .f32 0x00000000#32) (ix1 p) = _
  rw [Ideal.hostReduceAdd_single hrt hr, Ideal.ofBits_zero_f32, zero_add]
  exact Finset.sum_congr rfl fun k _ => congrArg src (lift_lane hr p k)

/-- A scalar broadcast to any shape reads the scalar everywhere. -/
theorem scalarBroadcast_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun a => a.elim0)

/-- A vector of `a` entries broadcast to a column [a, 1] reads, at (p, 0), entry `p`. -/
theorem hostCol_apply {α : Type} {a : ℕ} (u : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h u (ix2 p z) = u (ix1 p) := by
  refine broadcastInDim_apply _ h u (ix2 p z) (ix1 p) fun c => ?_
  match c with
  | ⟨0, _⟩ =>
    show p.val = if a = 1 then 0 else p.val
    split
    · have := p.isLt; omega
    · rfl

/-- A column [a, 1] broadcast along the last axis to [a, b] reads, at (p, q), the column at (p, 0). -/
theorem hostColBroadcast_apply {α : Type} {a b : ℕ} (w : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h w (ix2 p q) = w (ix2 p (0 : Fin 1)) := by
  refine broadcastInDim_apply _ h w (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A vector of `b` entries broadcast to a row [1, b] reads, at (0, q), entry `q`. -/
theorem hostRow_apply {α : Type} {b : ℕ} (u : (⟨1, ![b]⟩ : Shape).Idx → α)
    (h : (⟨1, ![b]⟩ : Shape).BroadcastsInDim ⟨2, ![1, b]⟩ ![1]) (z : Fin 1) (q : Fin b) :
    broadcastInDim ⟨2, ![1, b]⟩ ![1] h u (ix2 z q) = u (ix1 q) := by
  refine broadcastInDim_apply _ h u (ix2 z q) (ix1 q) fun c => ?_
  match c with
  | ⟨0, _⟩ =>
    show q.val = if b = 1 then 0 else q.val
    split
    · have := q.isLt; omega
    · rfl

/-- A row [1, b] broadcast down the first axis to [a, b] reads, at (p, q), the row at (0, q). -/
theorem hostRowBroadcast_apply {α : Type} {a b : ℕ} (w : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h w (ix2 p q) = w (ix2 (0 : Fin 1) q) := by
  refine broadcastInDim_apply _ h w (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

/-- The column of scales as the host computes it. -/
def hostColScale {M N : ℕ} (cN ce : BitVec 32) (a : FVec Ideal ⟨2, ![M, N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) : FVec Ideal ⟨2, ![M, 1]⟩ .f32 :=
  Host.rsqrt (addf (Host.divf
      (broadcastInDim ⟨2, ![M, 1]⟩ ![0] hb1 (Host.reduceAdd (mulf a a) (constant (F := Ideal) ⟨0, ![]⟩ .f32 0x00000000#32) hrt h0))
      (broadcastInDim ⟨2, ![M, 1]⟩ ![] hbs (constant (F := Ideal) ⟨0, ![]⟩ .f32 cN)))
    (broadcastInDim ⟨2, ![M, 1]⟩ ![] hbs (constant (F := Ideal) ⟨0, ![]⟩ .f32 ce)))

/-- The host's column of scales at row `p` is the scale of row `p`. -/
theorem hostColScale_apply {M N : ℕ} (cN ce : BitVec 32) (a : FVec Ideal ⟨2, ![M, N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![]) (p : Fin M) (z : Fin 1) :
    hostColScale cN ce a hrt h0 hb1 hbs (ix2 p z) = scale cN ce (row a p) := by
  have h1 : broadcastInDim ⟨2, ![M, 1]⟩ ![0] hb1
        (Host.reduceAdd (mulf a a) (constant (F := Ideal) ⟨0, ![]⟩ .f32 0x00000000#32) hrt h0) (ix2 p z)
      = ∑ k : Fin N, row a p k * row a p k :=
    (hostCol_apply _ hb1 p z).trans (hostSum_apply (mulf a a) hrt hr h0 p)
  have h2 : broadcastInDim ⟨2, ![M, 1]⟩ ![] hbs (constant (F := Ideal) ⟨0, ![]⟩ .f32 cN) (ix2 p z) = Ideal.ofBits .f32 cN :=
    scalarBroadcast_apply _ hbs (ix2 p z)
  have h3 : broadcastInDim ⟨2, ![M, 1]⟩ ![] hbs (constant (F := Ideal) ⟨0, ![]⟩ .f32 ce) (ix2 p z) = Ideal.ofBits .f32 ce :=
    scalarBroadcast_apply _ hbs (ix2 p z)
  show Ideal.rsqrt (Ideal.div
      (broadcastInDim ⟨2, ![M, 1]⟩ ![0] hb1 (Host.reduceAdd (mulf a a) (constant (F := Ideal) ⟨0, ![]⟩ .f32 0x00000000#32) hrt h0) (ix2 p z))
      (broadcastInDim ⟨2, ![M, 1]⟩ ![] hbs (constant (F := Ideal) ⟨0, ![]⟩ .f32 cN) (ix2 p z))
    + broadcastInDim ⟨2, ![M, 1]⟩ ![] hbs (constant (F := Ideal) ⟨0, ![]⟩ .f32 ce) (ix2 p z)) = _
  rw [h1, h2, h3]
  rfl

/-- Root-mean-square normalisation of the rows of `a` with gain `g`, as the host computes it. -/
def hostNorm {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) : FVec Ideal ⟨2, ![M, N]⟩ .f32 :=
  mulf (mulf a (broadcastInDim ⟨2, ![M, N]⟩ ![0, 1] hbc (hostColScale cN ce a hrt h0 hb1 hbs)))
    (broadcastInDim ⟨2, ![M, N]⟩ ![0, 1] hgb (broadcastInDim ⟨2, ![1, N]⟩ ![1] hg g))

/-- Row `p` of the host's normalisation is rowNorm of row `p`. -/
theorem hostNorm_row {M N : ℕ} (cN ce : BitVec 32) (a : FVec Ideal ⟨2, ![M, N]⟩ .f32) (g : FVec Ideal ⟨1, ![N]⟩ .f32)
    (hrt : (⟨2, ![M, N]⟩ : Shape).ReducesTo [1] (⟨1, ![M]⟩ : Shape))
    (hr : (⟨2, ![M, N]⟩ : Shape).Reduces [1] (⟨1, ![M]⟩ : Shape)) (h0 : 0 < (⟨0, ![]⟩ : Shape).numel)
    (hb1 : (⟨1, ![M]⟩ : Shape).BroadcastsInDim ⟨2, ![M, 1]⟩ ![0])
    (hbs : (⟨0, ![]⟩ : Shape).BroadcastsInDim ⟨2, ![M, 1]⟩ ![])
    (hbc : (⟨2, ![M, 1]⟩ : Shape).BroadcastsInDim ⟨2, ![M, N]⟩ ![0, 1])
    (hg : (⟨1, ![N]⟩ : Shape).BroadcastsInDim ⟨2, ![1, N]⟩ ![1])
    (hgb : (⟨2, ![1, N]⟩ : Shape).BroadcastsInDim ⟨2, ![M, N]⟩ ![0, 1]) (p : Fin M) :
    row (hostNorm cN ce a g hrt h0 hb1 hbs hbc hg hgb) p = rowNorm cN ce (row a p) (vec g) := by
  funext q
  have hs : broadcastInDim ⟨2, ![M, N]⟩ ![0, 1] hbc (hostColScale cN ce a hrt h0 hb1 hbs) (ix2 p q) = scale cN ce (row a p) :=
    (hostColBroadcast_apply _ hbc p q).trans (hostColScale_apply cN ce a hrt hr h0 hb1 hbs p 0)
  have hq : broadcastInDim ⟨2, ![M, N]⟩ ![0, 1] hgb (broadcastInDim ⟨2, ![1, N]⟩ ![1] hg g) (ix2 p q) = vec g q :=
    (hostRowBroadcast_apply _ hgb p q).trans (hostRow_apply g hg 0 q)
  show a (ix2 p q) * broadcastInDim ⟨2, ![M, N]⟩ ![0, 1] hbc (hostColScale cN ce a hrt h0 hb1 hbs) (ix2 p q)
      * broadcastInDim ⟨2, ![M, N]⟩ ![0, 1] hgb (broadcastInDim ⟨2, ![1, N]⟩ ![1] hg g) (ix2 p q) = _
  rw [hs, hq]
  rfl

end Cert.RmsNorm

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.Spec.lean ====
/-
  What both programs compute, one row at a time, on the extended reals.

  For a row x of the input (4096 entries), gain rows g0, g1, g2 and weight matrices w0, w1:
    z  = max(x, 0)                                        entry by entry
    r1 = norm(z, g0) · w0 + z                             norm = root-mean-square normalisation with a gain row
    y2 = norm(r1, g1)
    r2 = y2 · w1 + r1
    y3 = norm(r2, g2)                                     the result row.
  Every row of the result depends on the same row of the input only, so a block of rows of the result is the same
  function of the same block of rows of the input. The divisor 4096 and the offset 1e-5 appear as the 32-bit words
  the two programs share.
-/
import proofs.«100445_j28664611733561_1_alg».proof.Proof.LibRmsNorm

noncomputable section

namespace Cert.Spec

open Idealize.ShloMosaic Idealize.ShloMosaic.ValueIdx Cert.RmsNorm

/-- The word of the divisor, 4096.0. -/
abbrev cN : BitVec 32 := 0x45800000#32
/-- The word of the offset added to the mean of squares. -/
abbrev ce : BitVec 32 := 0x3727C5AC#32

/-- The positive part of a row. -/
def rowRelu {N : ℕ} (r : Fin N → EReal) : Fin N → EReal := fun k => max (r k) (Ideal.ofBits .f32 0x00000000#32)

/-- The first residual row: the normalised positive part times w0, plus the positive part. -/
def rowR1 {N : ℕ} (r g0 : Fin N → EReal) (w0 : Fin N → Fin N → EReal) : Fin N → EReal :=
  fun q => rowMat (rowNorm cN ce (rowRelu r) g0) w0 q + rowRelu r q

/-- The second normalised row. -/
def rowY2 {N : ℕ} (r g0 g1 : Fin N → EReal) (w0 : Fin N → Fin N → EReal) : Fin N → EReal :=
  rowNorm cN ce (rowR1 r g0 w0) g1

/-- The second residual row, from the second normalised row and the first residual row. -/
def rowStep2 {N : ℕ} (y2 r1 : Fin N → EReal) (w1 : Fin N → Fin N → EReal) : Fin N → EReal :=
  fun q => rowMat y2 w1 q + r1 q

/-- The result row. -/
def rowY3 {N : ℕ} (r g0 g1 g2 : Fin N → EReal) (w0 w1 : Fin N → Fin N → EReal) : Fin N → EReal :=
  rowNorm cN ce (rowStep2 (rowY2 r g0 g1 w0) (rowR1 r g0 w0) w1) g2

/-- The first residual as a whole array: entry (P, q) is the first residual of row P at q. -/
def arrR1 (x : (⟨2, ![16384, 4096]⟩ : Shape).Idx → EReal) (g0 : (⟨1, ![4096]⟩ : Shape).Idx → EReal)
    (w0 : (⟨2, ![4096, 4096]⟩ : Shape).Idx → EReal) : (⟨2, ![16384, 4096]⟩ : Shape).Idx → EReal :=
  fun i => rowR1 (row x (i 0)) (vec g0) (mat w0) (i 1)

/-- The second normalised rows as a whole array. -/
def arrY2 (x : (⟨2, ![16384, 4096]⟩ : Shape).Idx → EReal) (g0 g1 : (⟨1, ![4096]⟩ : Shape).Idx → EReal)
    (w0 : (⟨2, ![4096, 4096]⟩ : Shape).Idx → EReal) : (⟨2, ![16384, 4096]⟩ : Shape).Idx → EReal :=
  fun i => rowY2 (row x (i 0)) (vec g0) (vec g1) (mat w0) (i 1)

/-- The second stage applied to whole arrays y2 and r1: entry (P, q) is norm(y2_P · w1 + r1_P, g2) at q. -/
def arrStage2 (y2 r1 : (⟨2, ![16384, 4096]⟩ : Shape).Idx → EReal) (g2 : (⟨1, ![4096]⟩ : Shape).Idx → EReal)
    (w1 : (⟨2, ![4096, 4096]⟩ : Shape).Idx → EReal) : (⟨2, ![16384, 4096]⟩ : Shape).Idx → EReal :=
  fun i => rowNorm cN ce (rowStep2 (row y2 (i 0)) (row r1 (i 0)) (mat w1)) (vec g2) (i 1)

/-- The result as a whole array. -/
def arrY3 (x : (⟨2, ![16384, 4096]⟩ : Shape).Idx → EReal) (g0 g1 g2 : (⟨1, ![4096]⟩ : Shape).Idx → EReal)
    (w0 w1 : (⟨2, ![4096, 4096]⟩ : Shape).Idx → EReal) : (⟨2, ![16384, 4096]⟩ : Shape).Idx → EReal :=
  fun i => rowY3 (row x (i 0)) (vec g0) (vec g1) (vec g2) (mat w0) (mat w1) (i 1)

/-- The second stage applied to the first stage's two arrays is the result. -/
theorem arrStage2_eq (x : (⟨2, ![16384, 4096]⟩ : Shape).Idx → EReal) (g0 g1 g2 : (⟨1, ![4096]⟩ : Shape).Idx → EReal)
    (w0 w1 : (⟨2, ![4096, 4096]⟩ : Shape).Idx → EReal) :
    arrStage2 (arrY2 x g0 g1 w0) (arrR1 x g0 w0) g2 w1 = arrY3 x g0 g1 g2 w0 w1 := rfl

end Cert.Spec

end
-- ==== Proof.RefValue.lean ====
/-
  The reference's result, read one row at a time on the extended reals: it is the result array of Spec.

  The reference applies to the whole [16384, 4096] array what the kernels apply to blocks of 64 rows: the positive part,
  three root-mean-square normalisations with a gain row, two products with a weight matrix, two residual additions.
  Its stages (the generated one-operation-at-a-time reading) regroup into those steps by unfolding definitions; each
  step is then read row by row.
-/
import proofs.«100445_j28664611733561_1_alg».proof.Proof.Gen.ReferenceIdeal.Read
import proofs.«100445_j28664611733561_1_alg».proof.Proof.LibRmsNorm
import proofs.«100445_j28664611733561_1_alg».proof.Proof.LibHostReads
import proofs.«100445_j28664611733561_1_alg».proof.Proof.Spec

noncomputable section

namespace Cert.ReferenceIdeal.RefValue

open Idealize.ShloMosaic Idealize.ShloMosaic.ValueIdx Cert.ReferenceIdeal Cert.ReferenceIdeal.Read Cert.ReferenceIdeal.Facts₀
open Cert.RmsNorm Cert.Spec

/-- The positive part of the whole array. -/
def hRelu (x : FVec Ideal S16384x4096 .f32) : FVec Ideal S16384x4096 .f32 :=
  maximumf x (broadcastInDim S16384x4096 ![] bcast_S_S16384x4096 (constant (F := Ideal) S_ .f32 0x00000000#32))

/-- Root-mean-square normalisation of the whole array's rows with a gain row, as the reference spells it. -/
def hNorm (a : FVec Ideal S16384x4096 .f32) (g : FVec Ideal S4096 .f32) : FVec Ideal S16384x4096 .f32 :=
  hostNorm 0x45800000#32 0x3727C5AC#32 a g reducesTo_S16384x4096_S16384_d1 h_S_ bcast_S16384_S16384x1_0 bcast_S_S16384x1
    bcast_S16384x1_S16384x4096_0_1 bcast_S4096_S1x4096_1 bcast_S1x4096_S16384x4096_0_1

/-- The whole array times a weight matrix. -/
def hDot (a : FVec Ideal S16384x4096 .f32) (w : FVec Ideal S4096x4096 .f32) : FVec Ideal S16384x4096 .f32 :=
  Host.dotGeneral (F := Ideal) dot_S16384x4096_S4096x4096_S16384x4096_1_0_0_1_n_n none a w

/-! ## The stages regrouped -/

theorem v0_eq (x0 : FVec Ideal S16384x4096 .f32) : val_main_v0 (F := Ideal) x0 = hRelu x0 := rfl

theorem v15_eq (x0 : FVec Ideal S16384x4096 .f32) (x1 : FVec Ideal S4096 .f32) (x4 : FVec Ideal S4096x4096 .f32) :
    val_main_v15 (F := Ideal) x0 x1 x4 = addf (hDot (hNorm (hRelu x0) x1) x4) (hRelu x0) := rfl

theorem v28_eq (x0 : FVec Ideal S16384x4096 .f32) (x1 x2 : FVec Ideal S4096 .f32) (x4 : FVec Ideal S4096x4096 .f32) :
    val_main_v28 (F := Ideal) x0 x1 x2 x4 = hNorm (val_main_v15 (F := Ideal) x0 x1 x4) x2 := rfl

theorem v30_eq (x0 : FVec Ideal S16384x4096 .f32) (x1 x2 : FVec Ideal S4096 .f32) (x4 x5 : FVec Ideal S4096x4096 .f32) :
    val_main_v30 (F := Ideal) x0 x1 x2 x4 x5
      = addf (hDot (val_main_v28 (F := Ideal) x0 x1 x2 x4) x5) (val_main_v15 (F := Ideal) x0 x1 x4) := rfl

theorem v43_eq (x0 : FVec Ideal S16384x4096 .f32) (x1 x2 x3 : FVec Ideal S4096 .f32) (x4 x5 : FVec Ideal S4096x4096 .f32) :
    val_main_v43 (F := Ideal) x0 x1 x2 x3 x4 x5 = hNorm (val_main_v30 (F := Ideal) x0 x1 x2 x4 x5) x3 := rfl

/-! ## Row by row -/

theorem hRelu_row (x : FVec Ideal S16384x4096 .f32) (P : Fin 16384) : row (hRelu x) P = rowRelu (row x P) := by
  funext k
  show max (x (ix2 P k)) (broadcastInDim S16384x4096 ![] bcast_S_S16384x4096 (constant (F := Ideal) S_ .f32 0x00000000#32) (ix2 P k)) = _
  rw [scalarBroadcast_apply]
  rfl

theorem hNorm_row (a : FVec Ideal S16384x4096 .f32) (g : FVec Ideal S4096 .f32) (P : Fin 16384) :
    row (hNorm a g) P = rowNorm cN ce (row a P) (vec g) :=
  hostNorm_row 0x45800000#32 0x3727C5AC#32 a g reducesTo_S16384x4096_S16384_d1 (by decide) h_S_ bcast_S16384_S16384x1_0
    bcast_S_S16384x1 bcast_S16384x1_S16384x4096_0_1 bcast_S4096_S1x4096_1 bcast_S1x4096_S16384x4096_0_1 P

theorem hDot_row (a : FVec Ideal S16384x4096 .f32) (w : FVec Ideal S4096x4096 .f32) (P : Fin 16384) :
    row (hDot a w) P = rowMat (row a P) (mat w) := by
  funext q
  exact Cert.LibHostReads.dotGeneral_plain_apply 16384 4096 4096 none a w P q

/-- Row P of the reference's first residual. -/
theorem v15_row (x0 : FVec Ideal S16384x4096 .f32) (x1 : FVec Ideal S4096 .f32) (x4 : FVec Ideal S4096x4096 .f32) (P : Fin 16384) :
    row (val_main_v15 (F := Ideal) x0 x1 x4) P = rowR1 (row x0 P) (vec x1) (mat x4) := by
  rw [v15_eq, row_addf, hDot_row, hNorm_row, hRelu_row]
  rfl

/-- Row P of the reference's second normalised array. -/
theorem v28_row (x0 : FVec Ideal S16384x4096 .f32) (x1 x2 : FVec Ideal S4096 .f32) (x4 : FVec Ideal S4096x4096 .f32) (P : Fin 16384) :
    row (val_main_v28 (F := Ideal) x0 x1 x2 x4) P = rowY2 (row x0 P) (vec x1) (vec x2) (mat x4) := by
  rw [v28_eq, hNorm_row, v15_row]
  rfl

/-- Row P of the reference's result. -/
theorem v43_row (x0 : FVec Ideal S16384x4096 .f32) (x1 x2 x3 : FVec Ideal S4096 .f32) (x4 x5 : FVec Ideal S4096x4096 .f32) (P : Fin 16384) :
    row (val_main_v43 (F := Ideal) x0 x1 x2 x3 x4 x5) P = rowY3 (row x0 P) (vec x1) (vec x2) (vec x3) (mat x4) (mat x5) := by
  rw [v43_eq, hNorm_row, v30_eq, row_addf, hDot_row, v28_row, v15_row]
  rfl

/-- The reference's result is the result array of Spec. -/
theorem result_eq (x0 : FVec Ideal S16384x4096 .f32) (x1 x2 x3 : FVec Ideal S4096 .f32) (x4 x5 : FVec Ideal S4096x4096 .f32) :
    val_main_v43 (F := Ideal) x0 x1 x2 x3 x4 x5 = arrY3 x0 x1 x2 x3 x4 x5 := by
  funext i
  exact (congrArg (val_main_v43 (F := Ideal) x0 x1 x2 x3 x4 x5) (eq_ix2 i)).trans (congrFun (v43_row x0 x1 x2 x3 x4 x5 (i 0)) (i 1))

end Cert.ReferenceIdeal.RefValue

end
-- ==== Proof.KRun.lean ====
/-
  The idealized kernel's run with the result buffer named: every weakly fair execution of @main terminates, nothing
  faulting, with the result array at what the second pallas_call's write-backs leave in it and the six arguments as
  launched. The run is the generated one (the same segments: the host stretch, then the two regions) with the last
  thread state read at one more buffer.
-/
import proofs.«100445_j28664611733561_1_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read off the last thread state beside the arguments. -/
theorem run_out : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Val

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.Payload.lean ====
/-
  The three stored values of the two kernel bodies, read one row at a time on the extended reals.

  Stage 1 stores, for its block of 64 rows, the first residual rows (an f32 block) and the second normalised rows (a
  bf16 block: the change of format is the identity on extended reals); stage 2 stores the result rows from the two
  blocks it loads. Each stored block, at row p, is the row function of Spec applied to row p of the loaded blocks: the
  positive part and the normalisation read row by row, the product with the whole weight matrix as a row times a matrix.
-/
import proofs.«100445_j28664611733561_1_alg».proof.Proof.Gen.KernelIdeal.Skeleton
import proofs.«100445_j28664611733561_1_alg».proof.Proof.LibRmsNorm
import proofs.«100445_j28664611733561_1_alg».proof.Proof.LibPlainMatmul
import proofs.«100445_j28664611733561_1_alg».proof.Proof.Spec

noncomputable section

namespace Cert.KernelIdeal.Pay

open Idealize.ShloMosaic Idealize.ShloMosaic.ValueIdx Cert.KernelIdeal Cert.KernelIdeal.Facts₀
open Cert.KernelIdeal.Gen (k0_pay1 k0_pay2 k1_pay1)
open Cert.RmsNorm Cert.Spec

/-- The positive part of a block. -/
def vRelu (x : FVec Ideal S64x4096 .f32) : FVec Ideal S64x4096 .f32 :=
  maximumf x (broadcast S64x4096 (Scalar.ofBits .f32 0x00000000#32))

/-- Root-mean-square normalisation of a block's rows with a gain row, as the body spells it. -/
def vNorm (a : FVec Ideal S64x4096 .f32) (g : FVec Ideal S4096 .f32) : FVec Ideal S64x4096 .f32 :=
  vectorNorm 0x45800000#32 0x3727C5AC#32 a g reduces_S64x4096_S64 (.inl rfl) rfl shapeCasts_S64_S64x1
    broadcasts_S64x1_S64x4096 shapeCasts_S4096_S1x4096 broadcasts_S1x4096_S64x4096

/-- A block times the whole weight matrix, accumulated into zeros. -/
def vMat (a : FVec Ideal S64x4096 .bf16) (w : FVec Ideal S4096x4096 .bf16) : FVec Ideal S64x4096 .f32 :=
  matmul dot_S64x4096_S4096x4096_S64x4096_1_0_0_1_n_n none a (shapeCast S4096x4096 w shapeCasts_S4096x4096_S4096x4096)
    (constant S64x4096 .f32 0x00000000#32)

/-- Stage 1's f32 store: the normalised positive part times w0, plus the positive part. -/
theorem pay1_eq (x0 : Vec Ideal S64x4096 .f32) (g0 : Vec Ideal S4096 .f32) (w0 : Vec Ideal S4096x4096 .bf16) :
    k0_pay1 (F := Ideal) x0 g0 w0 = addf (vMat (truncf .bf16 (vNorm (vRelu x0) g0) bitsLt_bf16_f32) w0) (vRelu x0) := rfl

/-- Stage 1's bf16 store: the f32 store normalised with the second gain row. -/
theorem pay2_eq (x0 : Vec Ideal S64x4096 .f32) (g0 : Vec Ideal S4096 .f32) (w0 : Vec Ideal S4096x4096 .bf16)
    (g1 : Vec Ideal S4096 .f32) :
    k0_pay2 (F := Ideal) x0 g0 w0 g1 = truncf .bf16 (vNorm (k0_pay1 (F := Ideal) x0 g0 w0) g1) bitsLt_bf16_f32 := rfl

/-- Stage 2's store: the loaded normalised block times w1 plus the loaded residual block, normalised with the third gain row. -/
theorem pay3_eq (y2 : Vec Ideal S64x4096 .bf16) (r1 : Vec Ideal S64x4096 .f32) (w1 : Vec Ideal S4096x4096 .bf16)
    (g2 : Vec Ideal S4096 .f32) :
    k1_pay1 (F := Ideal) y2 r1 w1 g2
      = vNorm (addf (vMat (shapeCast S64x4096 y2 shapeCasts_S64x4096_S64x4096) w1)
          (shapeCast S64x4096 r1 shapeCasts_S64x4096_S64x4096)) g2 := rfl

/-! ## Row by row -/

theorem vRelu_row (x : FVec Ideal S64x4096 .f32) (p : Fin 64) : row (vRelu x) p = rowRelu (row x p) := rfl

theorem vNorm_row (a : FVec Ideal S64x4096 .f32) (g : FVec Ideal S4096 .f32) (p : Fin 64) :
    row (vNorm a g) p = rowNorm cN ce (row a p) (vec g) :=
  vectorNorm_row 0x45800000#32 0x3727C5AC#32 a g reduces_S64x4096_S64 (.inl rfl) rfl shapeCasts_S64_S64x1
    broadcasts_S64x1_S64x4096 shapeCasts_S4096_S1x4096 broadcasts_S1x4096_S64x4096 p

theorem vMat_row (a : FVec Ideal S64x4096 .bf16) (w : FVec Ideal S4096x4096 .bf16) (p : Fin 64) :
    row (vMat a w) p = rowMat (row a p) (mat w) := by
  funext q
  unfold vMat
  rw [shapeCast_self]
  exact Cert.PlainMatmul.matmul_zero_apply 64 4096 4096 none a w p q

/-- A change of format leaves every row as it is. -/
theorem row_truncf (a : FVec Ideal S64x4096 .f32) (p : Fin 64) :
    row (truncf .bf16 a bitsLt_bf16_f32 : FVec Ideal S64x4096 .bf16) p = row a p := rfl

/-- Row p of stage 1's f32 store is the first residual of row p of the loaded input block. -/
theorem pay1_row (x0 : Vec Ideal S64x4096 .f32) (g0 : Vec Ideal S4096 .f32) (w0 : Vec Ideal S4096x4096 .bf16) (p : Fin 64) :
    row (k0_pay1 (F := Ideal) x0 g0 w0) p = rowR1 (row x0 p) (vec g0) (mat w0) := by
  rw [pay1_eq, row_addf, vMat_row, row_truncf, vNorm_row, vRelu_row]
  rfl

/-- Row p of stage 1's bf16 store is the second normalised row of row p of the loaded input block. -/
theorem pay2_row (x0 : Vec Ideal S64x4096 .f32) (g0 : Vec Ideal S4096 .f32) (w0 : Vec Ideal S4096x4096 .bf16)
    (g1 : Vec Ideal S4096 .f32) (p : Fin 64) :
    row (k0_pay2 (F := Ideal) x0 g0 w0 g1) p = rowY2 (row x0 p) (vec g0) (vec g1) (mat w0) := by
  rw [pay2_eq, row_truncf, vNorm_row, pay1_row]
  rfl

/-- Row p of stage 2's store is the second stage of rows p of the two loaded blocks. -/
theorem pay3_row (y2 : Vec Ideal S64x4096 .bf16) (r1 : Vec Ideal S64x4096 .f32) (w1 : Vec Ideal S4096x4096 .bf16)
    (g2 : Vec Ideal S4096 .f32) (p : Fin 64) :
    row (k1_pay1 (F := Ideal) y2 r1 w1 g2) p = rowNorm cN ce (rowStep2 (row y2 p) (row r1 p) (mat w1)) (vec g2) := by
  rw [pay3_eq, vNorm_row, row_addf, vMat_row, shapeCast_self, shapeCast_self]
  rfl

/-! ## At one entry, from what the loaded blocks hold row by row -/

/-- Stage 1's f32 store at an entry j, when row (j 0) of the input block is a row r, the gain block a row g and the
    weight block a matrix w. -/
theorem pay1_at (x0 : Vec Ideal S64x4096 .f32) (g0 : Vec Ideal S4096 .f32) (w0 : Vec Ideal S4096x4096 .bf16)
    (r g : Fin 4096 → EReal) (w : Fin 4096 → Fin 4096 → EReal) (j : S64x4096.Idx)
    (hr : row x0 (j 0) = r) (hg : vec g0 = g) (hw : mat w0 = w) :
    k0_pay1 (F := Ideal) x0 g0 w0 j = rowR1 r g w (j 1) := by
  subst hr hg hw
  exact (congrArg (k0_pay1 (F := Ideal) x0 g0 w0) (eq_ix2 j)).trans (congrFun (pay1_row x0 g0 w0 (j 0)) (j 1))

/-- Stage 1's bf16 store at an entry j, likewise. -/
theorem pay2_at (x0 : Vec Ideal S64x4096 .f32) (g0 : Vec Ideal S4096 .f32) (w0 : Vec Ideal S4096x4096 .bf16)
    (g1 : Vec Ideal S4096 .f32) (r g g' : Fin 4096 → EReal) (w : Fin 4096 → Fin 4096 → EReal) (j : S64x4096.Idx)
    (hr : row x0 (j 0) = r) (hg : vec g0 = g) (hg' : vec g1 = g') (hw : mat w0 = w) :
    k0_pay2 (F := Ideal) x0 g0 w0 g1 j = rowY2 r g g' w (j 1) := by
  subst hr hg hg' hw
  exact (congrArg (k0_pay2 (F := Ideal) x0 g0 w0 g1) (eq_ix2 j)).trans (congrFun (pay2_row x0 g0 w0 g1 (j 0)) (j 1))

/-- Stage 2's store at an entry j, likewise. -/
theorem pay3_at (y2 : Vec Ideal S64x4096 .bf16) (r1 : Vec Ideal S64x4096 .f32) (w1 : Vec Ideal S4096x4096 .bf16)
    (g2 : Vec Ideal S4096 .f32) (ry rr g : Fin 4096 → EReal) (w : Fin 4096 → Fin 4096 → EReal) (j : S64x4096.Idx)
    (hy : row y2 (j 0) = ry) (hr : row r1 (j 0) = rr) (hg : vec g2 = g) (hw : mat w1 = w) :
    k1_pay1 (F := Ideal) y2 r1 w1 g2 j = rowNorm cN ce (rowStep2 ry rr w) g (j 1) := by
  subst hy hr hg hw
  exact (congrArg (k1_pay1 (F := Ideal) y2 r1 w1 g2) (eq_ix2 j)).trans (congrFun (pay3_row y2 r1 w1 g2 (j 0)) (j 1))

end Cert.KernelIdeal.Pay

end
-- ==== Proof.Blocks.lean ====
/-
  From blocks to arrays, for the two pallas_calls of the idealized kernel.

  Each pallas_call walks 256 grid points; at point t every row window holds rows 64t … 64t + 63 of its array, and the
  gain and weight windows hold their whole arrays. What point t writes back is therefore block t of ONE whole-array
  function of the arrays the region finds: the first residual and the second normalised rows for the first call, the
  second stage for the second call. The 256 blocks of 64 rows tile the 16384 rows, so each output array ends holding
  that function.
-/
import proofs.«100445_j28664611733561_1_alg».proof.Proof.Gen.KernelIdeal.Frame
import proofs.«100445_j28664611733561_1_alg».proof.Proof.Payload
import proofs.«100445_j28664611733561_1_alg».proof.Proof.Spec
import Idealize.ShloMosaic.Lib.Pipeline.Value

set_option maxRecDepth 16384

noncomputable section

namespace Cert.KernelIdeal.Blk

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Pay Cert.RmsNorm Cert.Spec

theorem hz2 : (![0, 0] : Fin 2 → Nat) = fun _ => 0 := funext fun a => by fin_cases a <;> rfl
theorem hz1 : (![0] : Fin 1 → Nat) = fun _ => 0 := funext fun a => by fin_cases a <;> rfl

/-! ## The printed index maps, decided once over each grid -/

/-- The block indices of the first call's windows at a point: the row windows move with the point, the others stay. -/
structure Idx0 (t : Fin cfg0.N) : Prop where
  w0r : win0_0.index t (0 : Fin 2) = t.val
  w0c : win0_0.index t (1 : Fin 2) = 0
  w1 : win0_1.index t (0 : Fin 1) = 0
  w2 : win0_2.index t (0 : Fin 1) = 0
  w3r : win0_3.index t (0 : Fin 2) = 0
  w3c : win0_3.index t (1 : Fin 2) = 0
  w4r : win0_4.index t (0 : Fin 2) = t.val
  w4c : win0_4.index t (1 : Fin 2) = 0
  w5r : win0_5.index t (0 : Fin 2) = t.val
  w5c : win0_5.index t (1 : Fin 2) = 0

theorem idx0_raw : ∀ t : Fin cfg0.N, win0_0.index t (0 : Fin 2) = t.val ∧ win0_0.index t (1 : Fin 2) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

theorem idx0 (t : Fin cfg0.N) : Idx0 t := by
  obtain ⟨a, b, c, d, e, f, g, h, i, j⟩ := idx0_raw t
  exact ⟨a, b, c, d, e, f, g, h, i, j⟩

/-- The block indices of the second call's windows at a point. -/
structure Idx1 (t : Fin cfg1.N) : Prop where
  w0r : win1_0.index t (0 : Fin 2) = t.val
  w0c : win1_0.index t (1 : Fin 2) = 0
  w1r : win1_1.index t (0 : Fin 2) = t.val
  w1c : win1_1.index t (1 : Fin 2) = 0
  w2 : win1_2.index t (0 : Fin 1) = 0
  w3r : win1_3.index t (0 : Fin 2) = 0
  w3c : win1_3.index t (1 : Fin 2) = 0
  w4r : win1_4.index t (0 : Fin 2) = t.val
  w4c : win1_4.index t (1 : Fin 2) = 0

theorem idx1_raw : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem idx1 (t : Fin cfg1.N) : Idx1 t := by
  obtain ⟨a, b, c, d, e, f, g, h, i⟩ := idx1_raw t
  exact ⟨a, b, c, d, e, f, g, h, i⟩

section Regions
-- the buffer contents a region is entered with: every statement of a region is at this parameter
variable (V : (c : Dev nD) → (b : Ref sig .tc) → Buf (Elt Ideal) ((c : Thread nD τ).loc b))

/-! ## The first call: what its windows hold -/

/-- Region 0, window 0: its block at point t is rows 64t … 64t + 63 of its array. -/
theorem iblk0_0_apply (c : Dev nD) (t : Fin cfg0.N) (x : S64x4096.Idx) (k : S16384x4096.Idx)
    (hk0 : (k 0).val = 64 * t.val + (x 0).val) (hk1 : (k 1).val = (x 1).val) :
    (iblk0 V c 0 t : Vec Ideal S64x4096 .f32) x = (V c main_arg0 : S16384x4096.Idx → Elt Ideal .f32) k := by
  have e0 : win0_0.index t (0 : Fin 2) = t.val := (idx0 t).w0r
  have e1 : win0_0.index t (1 : Fin 2) = 0 := (idx0 t).w0c
  unfold iblk0
  rw [View.read_apply]
  refine congrArg (V c main_arg0 : S16384x4096.Idx → Elt Ideal .f32) (funext fun a => Fin.ext ?_)
  match a with
  | ⟨0, _⟩ => show win0_0.index t (0 : Fin 2) * 64 + 1 * (x 0).val = (k 0).val; rw [e0, hk0]; omega
  | ⟨1, _⟩ => show win0_0.index t (1 : Fin 2) * 4096 + 1 * (x 1).val = (k 1).val; rw [e1, hk1]; omega

/-- Region 0, window 1: its block at every point is its whole array. -/
theorem iblk0_1_eq (c : Dev nD) (t : Fin cfg0.N) :
    (iblk0 V c 1 t : Vec Ideal S4096 .f32) = (V c main_arg1 : S4096.Idx → Elt Ideal .f32) := by
  have e0 : win0_1.index t (0 : Fin 1) = 0 := (idx0 t).w1
  unfold iblk0
  funext x
  rw [View.read_apply]
  refine congrArg (V c main_arg1 : S4096.Idx → Elt Ideal .f32) (funext fun a => Fin.ext ?_)
  match a with
  | ⟨0, _⟩ => show win0_1.index t (0 : Fin 1) * 4096 + 1 * (x 0).val = (x 0).val; rw [e0]; omega

/-- Region 0, window 2: its block at every point is its whole array. -/
theorem iblk0_2_eq (c : Dev nD) (t : Fin cfg0.N) :
    (iblk0 V c 2 t : Vec Ideal S4096 .f32) = (V c main_arg2 : S4096.Idx → Elt Ideal .f32) := by
  have e0 : win0_2.index t (0 : Fin 1) = 0 := (idx0 t).w2
  unfold iblk0
  funext x
  rw [View.read_apply]
  refine congrArg (V c main_arg2 : S4096.Idx → Elt Ideal .f32) (funext fun a => Fin.ext ?_)
  match a with
  | ⟨0, _⟩ => show win0_2.index t (0 : Fin 1) * 4096 + 1 * (x 0).val = (x 0).val; rw [e0]; omega

/-- Region 0, window 3: its block at every point is its whole array. -/
theorem iblk0_3_eq (c : Dev nD) (t : Fin cfg0.N) :
    (iblk0 V c 3 t : Vec Ideal S4096x4096 .bf16) = (V c main_v0 : S4096x4096.Idx → Elt Ideal .bf16) := by
  have e0 : win0_3.index t (0 : Fin 2) = 0 := (idx0 t).w3r
  have e1 : win0_3.index t (1 : Fin 2) = 0 := (idx0 t).w3c
  unfold iblk0
  funext x
  rw [View.read_apply]
  refine congrArg (V c main_v0 : S4096x4096.Idx → Elt Ideal .bf16) (funext fun a => Fin.ext ?_)
  match a with
  | ⟨0, _⟩ => show win0_3.index t (0 : Fin 2) * 4096 + 1 * (x 0).val = (x 0).val; rw [e0]; omega
  | ⟨1, _⟩ => show win0_3.index t (1 : Fin 2) * 4096 + 1 * (x 1).val = (x 1).val; rw [e1]; omega

/-- An index of the array is in point t's block of output window 4 iff each coordinate is in the block's range. -/
theorem mem_blk0_4 (t : Fin cfg0.N) (i : S16384x4096.Idx) :
    i ∈ ((cfg0.win 4).blk t).view.set ↔ ∀ a : Fin 2, win0_4.index t a * S64x4096.size a ≤ (i a).val
      ∧ (i a).val < win0_4.index t a * S64x4096.size a + S64x4096.size a := by
  show i ∈ ((View.whole main_v2_0).slice (win0_4.rect t)).set ↔ _
  rw [View.set_slice_whole, Rect.mem_set_unit]
  exact Iff.rfl

/-- Every index of the array lies in the block of the point its row falls in: the blocks of 64 rows tile the array. -/
theorem cover0_4_all (i : S16384x4096.Idx) :
    ∃ t : Fin cfg0.N, (cfg0.win 4).flush t = true ∧ i ∈ ((cfg0.win 4).blk t).view.set := by
  have h0 : (i 0).val < 16384 := (i 0).isLt
  have h1 : (i 1).val < 4096 := (i 1).isLt
  refine ⟨⟨(i 0).val / 64, lt_of_lt_of_eq (by omega : (i 0).val / 64 < 256) N_0.symm⟩, flush0_4 _, ?_⟩
  rw [mem_blk0_4]
  have e0 := (idx0 ⟨(i 0).val / 64, lt_of_lt_of_eq (by omega : (i 0).val / 64 < 256) N_0.symm⟩).w4r
  have e1 := (idx0 ⟨(i 0).val / 64, lt_of_lt_of_eq (by omega : (i 0).val / 64 < 256) N_0.symm⟩).w4c
  intro a
  match a with
  | ⟨0, _⟩ =>
    show win0_4.index _ (0 : Fin 2) * 64 ≤ (i 0).val ∧ (i 0).val < win0_4.index _ (0 : Fin 2) * 64 + 64
    rw [e0]
    show (i 0).val / 64 * 64 ≤ (i 0).val ∧ (i 0).val < (i 0).val / 64 * 64 + 64
    omega
  | ⟨1, _⟩ =>
    show win0_4.index _ (1 : Fin 2) * 4096 ≤ (i 1).val ∧ (i 1).val < win0_4.index _ (1 : Fin 2) * 4096 + 4096
    rw [e1]
    omega

/-- Where an entry of point t's block of output window 4 sits in the array. -/
theorem emb0_4 (t : Fin cfg0.N) (j : S64x4096.Idx) :
    ((((cfg0.win 4).blk t).view.emb j) 0).val = 64 * t.val + (j 0).val
      ∧ ((((cfg0.win 4).blk t).view.emb j) 1).val = (j 1).val := by
  have e0 : win0_4.index t (0 : Fin 2) = t.val := (idx0 t).w4r
  have e1 : win0_4.index t (1 : Fin 2) = 0 := (idx0 t).w4c
  constructor
  · show win0_4.index t (0 : Fin 2) * 64 + 1 * (j 0).val = _; rw [e0]; omega
  · show win0_4.index t (1 : Fin 2) * 4096 + 1 * (j 1).val = _; rw [e1]; omega

/-- An index of the array is in point t's block of output window 5 iff each coordinate is in the block's range. -/
theorem mem_blk0_5 (t : Fin cfg0.N) (i : S16384x4096.Idx) :
    i ∈ ((cfg0.win 5).blk t).view.set ↔ ∀ a : Fin 2, win0_5.index t a * S64x4096.size a ≤ (i a).val
      ∧ (i a).val < win0_5.index t a * S64x4096.size a + S64x4096.size a := by
  show i ∈ ((View.whole main_v2_1).slice (win0_5.rect t)).set ↔ _
  rw [View.set_slice_whole, Rect.mem_set_unit]
  exact Iff.rfl

/-- Every index of the array lies in the block of the point its row falls in: the blocks of 64 rows tile the array. -/
theorem cover0_5_all (i : S16384x4096.Idx) :
    ∃ t : Fin cfg0.N, (cfg0.win 5).flush t = true ∧ i ∈ ((cfg0.win 5).blk t).view.set := by
  have h0 : (i 0).val < 16384 := (i 0).isLt
  have h1 : (i 1).val < 4096 := (i 1).isLt
  refine ⟨⟨(i 0).val / 64, lt_of_lt_of_eq (by omega : (i 0).val / 64 < 256) N_0.symm⟩, flush0_5 _, ?_⟩
  rw [mem_blk0_5]
  have e0 := (idx0 ⟨(i 0).val / 64, lt_of_lt_of_eq (by omega : (i 0).val / 64 < 256) N_0.symm⟩).w5r
  have e1 := (idx0 ⟨(i 0).val / 64, lt_of_lt_of_eq (by omega : (i 0).val / 64 < 256) N_0.symm⟩).w5c
  intro a
  match a with
  | ⟨0, _⟩ =>
    show win0_5.index _ (0 : Fin 2) * 64 ≤ (i 0).val ∧ (i 0).val < win0_5.index _ (0 : Fin 2) * 64 + 64
    rw [e0]
    show (i 0).val / 64 * 64 ≤ (i 0).val ∧ (i 0).val < (i 0).val / 64 * 64 + 64
    omega
  | ⟨1, _⟩ =>
    show win0_5.index _ (1 : Fin 2) * 4096 ≤ (i 1).val ∧ (i 1).val < win0_5.index _ (1 : Fin 2) * 4096 + 4096
    rw [e1]
    omega

/-- Where an entry of point t's block of output window 5 sits in the array. -/
theorem emb0_5 (t : Fin cfg0.N) (j : S64x4096.Idx) :
    ((((cfg0.win 5).blk t).view.emb j) 0).val = 64 * t.val + (j 0).val
      ∧ ((((cfg0.win 5).blk t).view.emb j) 1).val = (j 1).val := by
  have e0 : win0_5.index t (0 : Fin 2) = t.val := (idx0 t).w5r
  have e1 : win0_5.index t (1 : Fin 2) = 0 := (idx0 t).w5c
  constructor
  · show win0_5.index t (0 : Fin 2) * 64 + 1 * (j 0).val = _; rw [e0]; omega
  · show win0_5.index t (1 : Fin 2) * 4096 + 1 * (j 1).val = _; rw [e1]; omega

/-- What point t of the first call writes back through window 5 is block t of the first residual of the arrays the call finds. -/
theorem flushed0_5_eq (c : Dev nD) (t : Fin cfg0.N) :
    (dat0 V c).flushed 5 t
      = ((cfg0.win 5).blk t).view.read (Elt Ideal) (arrR1 (V c main_arg0) (V c main_arg1) (V c main_v0)) := by
  show (cfg0.win 5).cut (grid0.coords t) ((dat0 V c).after 5 t) = _
  rw [after0_5]
  unfold out0_5
  rw [View.canon_unit_zero hz2]
  simp only [View.ld_unit_zero (S := S64x4096) hz2, View.ld_unit_zero (S := S4096) hz1, View.ld_unit_zero (S := S4096x4096) hz2]
  funext j
  obtain ⟨hi0, hi1⟩ := emb0_5 t j
  show k0_pay1 (F := Ideal) (iblk0 V c 0 t) (iblk0 V c 1 t) (iblk0 V c 3 t) j
    = arrR1 (V c main_arg0) (V c main_arg1) (V c main_v0) (((cfg0.win 5).blk t).view.emb j)
  refine (pay1_at (iblk0 V c 0 t) (iblk0 V c 1 t) (iblk0 V c 3 t)
    (row (V c main_arg0) ((((cfg0.win 5).blk t).view.emb j) 0)) (vec (V c main_arg1)) (mat (V c main_v0)) j ?_ ?_ ?_).trans ?_
  · funext k
    exact iblk0_0_apply V c t (ix2 (j 0) k) (ix2 ((((cfg0.win 5).blk t).view.emb j) 0) k) hi0 rfl
  · rw [iblk0_1_eq V c t]
  · rw [iblk0_3_eq V c t]
  · exact congrArg (rowR1 (row (V c main_arg0) ((((cfg0.win 5).blk t).view.emb j) 0)) (vec (V c main_arg1)) (mat (V c main_v0)))
      (Fin.ext hi1.symm)

/-- What point t of the first call writes back through window 4 is block t of the second normalised rows. -/
theorem flushed0_4_eq (c : Dev nD) (t : Fin cfg0.N) :
    (dat0 V c).flushed 4 t
      = ((cfg0.win 4).blk t).view.read (Elt Ideal) (arrY2 (V c main_arg0) (V c main_arg1) (V c main_arg2) (V c main_v0)) := by
  show (cfg0.win 4).cut (grid0.coords t) ((dat0 V c).after 4 t) = _
  rw [after0_4]
  unfold out0_4
  rw [View.canon_unit_zero hz2]
  simp only [View.ld_unit_zero (S := S64x4096) hz2, View.ld_unit_zero (S := S4096) hz1, View.ld_unit_zero (S := S4096x4096) hz2]
  funext j
  obtain ⟨hi0, hi1⟩ := emb0_4 t j
  show k0_pay2 (F := Ideal) (iblk0 V c 0 t) (iblk0 V c 1 t) (iblk0 V c 3 t) (iblk0 V c 2 t) j
    = arrY2 (V c main_arg0) (V c main_arg1) (V c main_arg2) (V c main_v0) (((cfg0.win 4).blk t).view.emb j)
  refine (pay2_at (iblk0 V c 0 t) (iblk0 V c 1 t) (iblk0 V c 3 t) (iblk0 V c 2 t)
    (row (V c main_arg0) ((((cfg0.win 4).blk t).view.emb j) 0)) (vec (V c main_arg1)) (vec (V c main_arg2)) (mat (V c main_v0)) j
    ?_ ?_ ?_ ?_).trans ?_
  · funext k
    exact iblk0_0_apply V c t (ix2 (j 0) k) (ix2 ((((cfg0.win 4).blk t).view.emb j) 0) k) hi0 rfl
  · rw [iblk0_1_eq V c t]
  · rw [iblk0_2_eq V c t]
  · rw [iblk0_3_eq V c t]
  · exact congrArg (rowY2 (row (V c main_arg0) ((((cfg0.win 4).blk t).view.emb j) 0)) (vec (V c main_arg1)) (vec (V c main_arg2))
      (mat (V c main_v0))) (Fin.ext hi1.symm)

/-- After the first call its f32 output array holds the first residual of the arrays the call found. -/
theorem final0_5 (c : Dev nD) :
    (dat0 V c).arrAt 5 cfg0.N = arrR1 (V c main_arg0) (V c main_arg1) (V c main_v0) :=
  (dat0 V c).arrAt_eq_of_cover 5 _ (fun t _ => flushed0_5_eq V c t) cover0_5_all

/-- After the first call its bf16 output array holds the second normalised rows. -/
theorem final0_4 (c : Dev nD) :
    (dat0 V c).arrAt 4 cfg0.N = arrY2 (V c main_arg0) (V c main_arg1) (V c main_arg2) (V c main_v0) :=
  (dat0 V c).arrAt_eq_of_cover 4 _ (fun t _ => flushed0_4_eq V c t) cover0_4_all

/-! ## The second call -/

/-- Region 1, window 0: its block at point t is rows 64t … 64t + 63 of its array. -/
theorem iblk1_0_apply (c : Dev nD) (t : Fin cfg1.N) (x : S64x4096.Idx) (k : S16384x4096.Idx)
    (hk0 : (k 0).val = 64 * t.val + (x 0).val) (hk1 : (k 1).val = (x 1).val) :
    (iblk1 V c 0 t : Vec Ideal S64x4096 .bf16) x = (V c main_v2_0 : S16384x4096.Idx → Elt Ideal .bf16) k := by
  have e0 : win1_0.index t (0 : Fin 2) = t.val := (idx1 t).w0r
  have e1 : win1_0.index t (1 : Fin 2) = 0 := (idx1 t).w0c
  unfold iblk1
  rw [View.read_apply]
  refine congrArg (V c main_v2_0 : S16384x4096.Idx → Elt Ideal .bf16) (funext fun a => Fin.ext ?_)
  match a with
  | ⟨0, _⟩ => show win1_0.index t (0 : Fin 2) * 64 + 1 * (x 0).val = (k 0).val; rw [e0, hk0]; omega
  | ⟨1, _⟩ => show win1_0.index t (1 : Fin 2) * 4096 + 1 * (x 1).val = (k 1).val; rw [e1, hk1]; omega

/-- Region 1, window 1: its block at point t is rows 64t … 64t + 63 of its array. -/
theorem iblk1_1_apply (c : Dev nD) (t : Fin cfg1.N) (x : S64x4096.Idx) (k : S16384x4096.Idx)
    (hk0 : (k 0).val = 64 * t.val + (x 0).val) (hk1 : (k 1).val = (x 1).val) :
    (iblk1 V c 1 t : Vec Ideal S64x4096 .f32) x = (V c main_v2_1 : S16384x4096.Idx → Elt Ideal .f32) k := by
  have e0 : win1_1.index t (0 : Fin 2) = t.val := (idx1 t).w1r
  have e1 : win1_1.index t (1 : Fin 2) = 0 := (idx1 t).w1c
  unfold iblk1
  rw [View.read_apply]
  refine congrArg (V c main_v2_1 : S16384x4096.Idx → Elt Ideal .f32) (funext fun a => Fin.ext ?_)
  match a with
  | ⟨0, _⟩ => show win1_1.index t (0 : Fin 2) * 64 + 1 * (x 0).val = (k 0).val; rw [e0, hk0]; omega
  | ⟨1, _⟩ => show win1_1.index t (1 : Fin 2) * 4096 + 1 * (x 1).val = (k 1).val; rw [e1, hk1]; omega

/-- Region 1, window 2: its block at every point is its whole array. -/
theorem iblk1_2_eq (c : Dev nD) (t : Fin cfg1.N) :
    (iblk1 V c 2 t : Vec Ideal S4096 .f32) = (V c main_arg3 : S4096.Idx → Elt Ideal .f32) := by
  have e0 : win1_2.index t (0 : Fin 1) = 0 := (idx1 t).w2
  unfold iblk1
  funext x
  rw [View.read_apply]
  refine congrArg (V c main_arg3 : S4096.Idx → Elt Ideal .f32) (funext fun a => Fin.ext ?_)
  match a with
  | ⟨0, _⟩ => show win1_2.index t (0 : Fin 1) * 4096 + 1 * (x 0).val = (x 0).val; rw [e0]; omega

/-- Region 1, window 3: its block at every point is its whole array. -/
theorem iblk1_3_eq (c : Dev nD) (t : Fin cfg1.N) :
    (iblk1 V c 3 t : Vec Ideal S4096x4096 .bf16) = (V c main_v1 : S4096x4096.Idx → Elt Ideal .bf16) := by
  have e0 : win1_3.index t (0 : Fin 2) = 0 := (idx1 t).w3r
  have e1 : win1_3.index t (1 : Fin 2) = 0 := (idx1 t).w3c
  unfold iblk1
  funext x
  rw [View.read_apply]
  refine congrArg (V c main_v1 : S4096x4096.Idx → Elt Ideal .bf16) (funext fun a => Fin.ext ?_)
  match a with
  | ⟨0, _⟩ => show win1_3.index t (0 : Fin 2) * 4096 + 1 * (x 0).val = (x 0).val; rw [e0]; omega
  | ⟨1, _⟩ => show win1_3.index t (1 : Fin 2) * 4096 + 1 * (x 1).val = (x 1).val; rw [e1]; omega

/-- An index of the array is in point t's block of output window 4 iff each coordinate is in the block's range. -/
theorem mem_blk1_4 (t : Fin cfg1.N) (i : S16384x4096.Idx) :
    i ∈ ((cfg1.win 4).blk t).view.set ↔ ∀ a : Fin 2, win1_4.index t a * S64x4096.size a ≤ (i a).val
      ∧ (i a).val < win1_4.index t a * S64x4096.size a + S64x4096.size a := by
  show i ∈ ((View.whole main_v3).slice (win1_4.rect t)).set ↔ _
  rw [View.set_slice_whole, Rect.mem_set_unit]
  exact Iff.rfl

/-- Every index of the array lies in the block of the point its row falls in: the blocks of 64 rows tile the array. -/
theorem cover1_4_all (i : S16384x4096.Idx) :
    ∃ t : Fin cfg1.N, (cfg1.win 4).flush t = true ∧ i ∈ ((cfg1.win 4).blk t).view.set := by
  have h0 : (i 0).val < 16384 := (i 0).isLt
  have h1 : (i 1).val < 4096 := (i 1).isLt
  refine ⟨⟨(i 0).val / 64, lt_of_lt_of_eq (by omega : (i 0).val / 64 < 256) N_1.symm⟩, flush1_4 _, ?_⟩
  rw [mem_blk1_4]
  have e0 := (idx1 ⟨(i 0).val / 64, lt_of_lt_of_eq (by omega : (i 0).val / 64 < 256) N_1.symm⟩).w4r
  have e1 := (idx1 ⟨(i 0).val / 64, lt_of_lt_of_eq (by omega : (i 0).val / 64 < 256) N_1.symm⟩).w4c
  intro a
  match a with
  | ⟨0, _⟩ =>
    show win1_4.index _ (0 : Fin 2) * 64 ≤ (i 0).val ∧ (i 0).val < win1_4.index _ (0 : Fin 2) * 64 + 64
    rw [e0]
    show (i 0).val / 64 * 64 ≤ (i 0).val ∧ (i 0).val < (i 0).val / 64 * 64 + 64
    omega
  | ⟨1, _⟩ =>
    show win1_4.index _ (1 : Fin 2) * 4096 ≤ (i 1).val ∧ (i 1).val < win1_4.index _ (1 : Fin 2) * 4096 + 4096
    rw [e1]
    omega

/-- Where an entry of point t's block of output window 4 sits in the array. -/
theorem emb1_4 (t : Fin cfg1.N) (j : S64x4096.Idx) :
    ((((cfg1.win 4).blk t).view.emb j) 0).val = 64 * t.val + (j 0).val
      ∧ ((((cfg1.win 4).blk t).view.emb j) 1).val = (j 1).val := by
  have e0 : win1_4.index t (0 : Fin 2) = t.val := (idx1 t).w4r
  have e1 : win1_4.index t (1 : Fin 2) = 0 := (idx1 t).w4c
  constructor
  · show win1_4.index t (0 : Fin 2) * 64 + 1 * (j 0).val = _; rw [e0]; omega
  · show win1_4.index t (1 : Fin 2) * 4096 + 1 * (j 1).val = _; rw [e1]; omega

/-- What point t of the second call writes back is block t of the second stage of the arrays the call finds. -/
theorem flushed1_4_eq (c : Dev nD) (t : Fin cfg1.N) :
    (dat1 V c).flushed 4 t
      = ((cfg1.win 4).blk t).view.read (Elt Ideal) (arrStage2 (V c main_v2_0) (V c main_v2_1) (V c main_arg3) (V c main_v1)) := by
  show (cfg1.win 4).cut (grid1.coords t) ((dat1 V c).after 4 t) = _
  rw [after1_4]
  unfold out1_4
  rw [View.canon_unit_zero hz2]
  simp only [View.ld_unit_zero (S := S64x4096) hz2, View.ld_unit_zero (S := S4096) hz1, View.ld_unit_zero (S := S4096x4096) hz2]
  funext j
  obtain ⟨hi0, hi1⟩ := emb1_4 t j
  show k1_pay1 (F := Ideal) (iblk1 V c 0 t) (iblk1 V c 1 t) (iblk1 V c 3 t) (iblk1 V c 2 t) j
    = arrStage2 (V c main_v2_0) (V c main_v2_1) (V c main_arg3) (V c main_v1) (((cfg1.win 4).blk t).view.emb j)
  refine (pay3_at (iblk1 V c 0 t) (iblk1 V c 1 t) (iblk1 V c 3 t) (iblk1 V c 2 t)
    (row (V c main_v2_0) ((((cfg1.win 4).blk t).view.emb j) 0)) (row (V c main_v2_1) ((((cfg1.win 4).blk t).view.emb j) 0))
    (vec (V c main_arg3)) (mat (V c main_v1)) j ?_ ?_ ?_ ?_).trans ?_
  · funext k
    exact iblk1_0_apply V c t (ix2 (j 0) k) (ix2 ((((cfg1.win 4).blk t).view.emb j) 0) k) hi0 rfl
  · funext k
    exact iblk1_1_apply V c t (ix2 (j 0) k) (ix2 ((((cfg1.win 4).blk t).view.emb j) 0) k) hi0 rfl
  · rw [iblk1_2_eq V c t]
  · rw [iblk1_3_eq V c t]
  · exact congrArg (rowNorm cN ce (rowStep2 (row (V c main_v2_0) ((((cfg1.win 4).blk t).view.emb j) 0))
      (row (V c main_v2_1) ((((cfg1.win 4).blk t).view.emb j) 0)) (mat (V c main_v1))) (vec (V c main_arg3))) (Fin.ext hi1.symm)

/-- After the second call its output array holds the second stage of the arrays the call found. -/
theorem final1_4 (c : Dev nD) :
    (dat1 V c).arrAt 4 cfg1.N = arrStage2 (V c main_v2_0) (V c main_v2_1) (V c main_arg3) (V c main_v1) :=
  (dat1 V c).arrAt_eq_of_cover 4 _ (fun t _ => flushed1_4_eq V c t) cover1_4_all

end Regions

end Cert.KernelIdeal.Blk

end
-- ==== Proof.Glue.lean ====
/-
  The idealized kernel's result array after the run is the result array of Spec of the six arguments.

  The two weight matrices are cast to bf16 on the host before the first call: on extended reals the cast is the
  identity. The first call finds the arguments as launched and leaves the second normalised rows and the first residual in
  its two output arrays; the second call finds those two arrays, the third gain row and the second weight matrix, and
  leaves the second stage of them in the result array, which is the result of Spec.
-/
import proofs.«100445_j28664611733561_1_alg».proof.Proof.Gen.KernelIdeal.Frame
import proofs.«100445_j28664611733561_1_alg».proof.Proof.KRun
import proofs.«100445_j28664611733561_1_alg».proof.Proof.Blocks
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem Idealize.ShloMosaic.StableHlo
open Cert.KernelIdeal Cert.KernelIdeal.Gen Cert.KernelIdeal.Blk Cert.Spec

variable (m : (ℓ : Loc nD τ sig) → Buf (Elt Ideal) ℓ) (ρ : Dev nD → PrngReg)

/-! ## What the first call finds: the arguments, and the first weight matrix cast -/

theorem V1_arg0 (c : Dev nD) :
    (V1 m ρ c main_arg0 : S16384x4096.Idx → Elt Ideal .f32) = m ((c : Thread nD τ).loc main_arg0) := by
  show StableHlo.after hostOps0 (W0 m ρ c) (Proc.devRef .tc main_arg0) = _
  dsimp only [hostOps0]
  after_results

theorem V1_arg1 (c : Dev nD) :
    (V1 m ρ c main_arg1 : S4096.Idx → Elt Ideal .f32) = m ((c : Thread nD τ).loc main_arg1) := by
  show StableHlo.after hostOps0 (W0 m ρ c) (Proc.devRef .tc main_arg1) = _
  dsimp only [hostOps0]
  after_results

theorem V1_arg2 (c : Dev nD) :
    (V1 m ρ c main_arg2 : S4096.Idx → Elt Ideal .f32) = m ((c : Thread nD τ).loc main_arg2) := by
  show StableHlo.after hostOps0 (W0 m ρ c) (Proc.devRef .tc main_arg2) = _
  dsimp only [hostOps0]
  after_results

theorem V1_arg3 (c : Dev nD) :
    (V1 m ρ c main_arg3 : S4096.Idx → Elt Ideal .f32) = m ((c : Thread nD τ).loc main_arg3) := by
  show StableHlo.after hostOps0 (W0 m ρ c) (Proc.devRef .tc main_arg3) = _
  dsimp only [hostOps0]
  after_results

/-- The first weight matrix as the first call finds it: cast to bf16, which changes no extended real. -/
theorem V1_v0 (c : Dev nD) :
    (V1 m ρ c main_v0 : S4096x4096.Idx → EReal) = (m ((c : Thread nD τ).loc main_arg4) : S4096x4096.Idx → EReal) := by
  show StableHlo.after hostOps0 (W0 m ρ c) (Proc.devRef .tc main_v0) = _
  dsimp only [hostOps0]
  after_results
  rfl

/-- The second weight matrix, likewise. -/
theorem V1_v1 (c : Dev nD) :
    (V1 m ρ c main_v1 : S4096x4096.Idx → EReal) = (m ((c : Thread nD τ).loc main_arg5) : S4096x4096.Idx → EReal) := by
  show StableHlo.after hostOps0 (W0 m ρ c) (Proc.devRef .tc main_v1) = _
  dsimp only [hostOps0]
  after_results
  rfl

/-! ## What the second call finds -/

/-- The first residual, left by the first call. -/
theorem V2_v2_1 (c : Dev nD) :
    (V2 m ρ c main_v2_1 : S16384x4096.Idx → EReal)
      = arrR1 (m ((c : Thread nD τ).loc main_arg0)) (m ((c : Thread nD τ).loc main_arg1)) (m ((c : Thread nD τ).loc main_arg4)) := by
  have h := (W2_arr m ρ c 5).trans (final0_5 (V1 m ρ) c)
  rw [V1_arg0 m ρ c, V1_arg1 m ρ c, V1_v0 m ρ c] at h
  exact h

/-- The second normalised rows, left by the first call. -/
theorem V2_v2_0 (c : Dev nD) :
    (V2 m ρ c main_v2_0 : S16384x4096.Idx → EReal)
      = arrY2 (m ((c : Thread nD τ).loc main_arg0)) (m ((c : Thread nD τ).loc main_arg1)) (m ((c : Thread nD τ).loc main_arg2))
          (m ((c : Thread nD τ).loc main_arg4)) := by
  have h := (W2_arr m ρ c 4).trans (final0_4 (V1 m ρ) c)
  rw [V1_arg0 m ρ c, V1_arg1 m ρ c, V1_arg2 m ρ c, V1_v0 m ρ c] at h
  exact h

/-- The third gain row: the first call does not touch it. -/
theorem V2_arg3 (c : Dev nD) :
    (V2 m ρ c main_arg3 : S4096.Idx → Elt Ideal .f32) = m ((c : Thread nD τ).loc main_arg3) :=
  (W2_of_ne m ρ c main_arg3 (by decide)).trans (V1_arg3 m ρ c)

/-- The second weight matrix: the first call does not touch it. -/
theorem V2_v1 (c : Dev nD) :
    (V2 m ρ c main_v1 : S4096x4096.Idx → EReal) = (m ((c : Thread nD τ).loc main_arg5) : S4096x4096.Idx → EReal) :=
  (W2_of_ne m ρ c main_v1 (by decide)).trans (V1_v1 m ρ c)

/-! ## The result -/

/-- The result array after the run is the result of Spec of the arguments. -/
theorem out_eq (c : Dev nD) :
    (W3 m ρ c (Proc.devRef .tc main_v3) : S16384x4096.Idx → EReal)
      = arrY3 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have h := (W3_arr m ρ c 4).trans (final1_4 (V2 m ρ) c)
  rw [V2_v2_0 m ρ c, V2_v2_1 m ρ c, V2_arg3 m ρ c, V2_v1 m ρ c] at h
  exact h.trans (arrStage2_eq _ _ _ _ _ _)

/-- The run, read: the result array at the result of Spec of the arguments, the arguments unchanged. -/
theorem run : θ_run defs (onTc (τ := τ) (main (F := Ideal))) ⟨m, fun _ => 0, ρ⟩ (fun r => ∀ c : Dev nD,
      r.2.mem ((c.tc : Thread nD τ).loc main_v3)
        = arrY3 (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (out_eq m ρ c), (h c).2⟩) (run_out m ρ)

end Cert.KernelIdeal.Val

end
-- ==== Proof.lean ====
/-
  Two pallas_calls against one jnp program, equal on the extended reals.

  The kernel takes the positive part z of x and computes, block of 64 rows by block, the first residual
  r1 = norm(z, g0) · w0 + z and its normalisation y2 = norm(r1, g1) in a first call, then r2 = y2 · w1 + r1 and the
  result y3 = norm(r2, g2) in a second call; norm(a, g) is the root-mean-square normalisation of each row of a
  (a · rsqrt(Σ a² / 4096 + 1e-5), entry by entry) times the gain row g. The reference computes the same five steps
  on the whole [16384, 4096] array. Every row of every step depends only on the same row of x, so the two agree
  once each side is read row by row: the same operations, in the same order, on the same sums — no law of
  arithmetic is used and no entry needs to be finite. The casts to bf16 on the way into the matrix products change
  no extended real.

  The frames of the two kernel programs are the generated ones; the reference's frame is its generated run with the
  result dropped. The ideal pass rewrote nothing, so the idealization claim is trivial. The equality claim: the
  kernel's run ends with the result array at Spec's result of the arguments (Glue), the reference's run at its
  composed term, which is the same array (RefValue), and the arguments agree.
-/
import proofs.«100445_j28664611733561_1_alg».proof.Defs
import proofs.«100445_j28664611733561_1_alg».proof.Proof.Gen.Kernel
import proofs.«100445_j28664611733561_1_alg».proof.Proof.Gen.Kernel.Skeleton
import proofs.«100445_j28664611733561_1_alg».proof.Proof.Gen.Kernel.Launch
import proofs.«100445_j28664611733561_1_alg».proof.Proof.Gen.Kernel.Points
import proofs.«100445_j28664611733561_1_alg».proof.Proof.Gen.Kernel.Frame
import proofs.«100445_j28664611733561_1_alg».proof.Proof.Gen.KernelIdeal
import proofs.«100445_j28664611733561_1_alg».proof.Proof.Gen.KernelIdeal.Skeleton
import proofs.«100445_j28664611733561_1_alg».proof.Proof.Gen.KernelIdeal.Launch
import proofs.«100445_j28664611733561_1_alg».proof.Proof.Gen.KernelIdeal.Points
import proofs.«100445_j28664611733561_1_alg».proof.Proof.Gen.KernelIdeal.Frame
import proofs.«100445_j28664611733561_1_alg».proof.Proof.Gen.ReferenceIdeal
import proofs.«100445_j28664611733561_1_alg».proof.Proof.Gen.ReferenceIdeal.Run
import proofs.«100445_j28664611733561_1_alg».proof.Proof.Gen.ReferenceIdeal.Read
import proofs.«100445_j28664611733561_1_alg».proof.Proof.Gen.Pre_finite_inputs
import proofs.«100445_j28664611733561_1_alg».proof.Proof.RefValue
import proofs.«100445_j28664611733561_1_alg».proof.Proof.Glue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result array at Spec's result of the arguments, which agree. -/
theorem algebraic : Cert.algebraic_KernelIdeal_ReferenceIdeal := by
  intro m ρ m' ρ' _ hagree
  refine ⟨_, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefValue.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
